-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S40000x128 .f32) (main_arg1 : IVec S640000 32) (main_arg2 : IVec S640000 32) (main_arg3 : FVec F S128x128 .f32) (main_arg4 : FVec F S128x128 .f32) (main_arg5 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S2000x128 : Shape := ⟨2, ![2000, 128]⟩

abbrev nBuf : Space → Nat
  | .hbm => 33
  | .vmem => 9
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .f32⟩
  | .hbm, ⟨16, _⟩ => ⟨S40000x128, .f32⟩
  | .hbm, ⟨17, _⟩ => ⟨S640000x1, .i32⟩
  | .hbm, ⟨18, _⟩ => ⟨S40000x128, .f32⟩
  | .hbm, ⟨19, _⟩ => ⟨S_, .f32⟩
  | .hbm, ⟨20, _⟩ => ⟨S640000, .f32⟩
  | .hbm, ⟨21, _⟩ => ⟨S_, .f32⟩
  | .hbm, ⟨22, _⟩ => ⟨S40000, .f32⟩
  | .hbm, ⟨23, _⟩ => ⟨S640000x1, .i32⟩
  | .hbm, ⟨24, _⟩ => ⟨S40000, .f32⟩
  | .hbm, ⟨25, _⟩ => ⟨S_, .f32⟩
  | .hbm, ⟨26, _⟩ => ⟨S40000, .f32⟩
  | .hbm, ⟨27, _⟩ => ⟨S40000, .f32⟩
  | .hbm, ⟨28, _⟩ => ⟨S40000x1, .f32⟩
  | .hbm, ⟨29, _⟩ => ⟨S40000x128, .f32⟩
  | .hbm, ⟨30, _⟩ => ⟨S40000x128, .f32⟩
  | .hbm, ⟨31, _⟩ => ⟨S1x128, .f32⟩
  | .hbm, ⟨32, _⟩ => ⟨S40000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S40000x128.size a
  hwx0_1 : ∀ i : grid0.Coords, EltTy.bits .f32 = 32 ∨ (Rect.block (s := S40000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S40000x128.size a
  hwx0_5 : ∀ i : grid0.Coords, EltTy.bits .f32 = 32 ∨ (Rect.block (s := S40000x128) S2000x128.size (cc0_transform_5 i) (hinb0_5 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .f32⟩
  | .hbm, ⟨16, _⟩ => ⟨S40000x128, .f32⟩
  | .hbm, ⟨17, _⟩ => ⟨S640000x1, .i32⟩
  | .hbm, ⟨18, _⟩ => ⟨S40000x128, .f32⟩
  | .hbm, ⟨19, _⟩ => ⟨S_, .f32⟩
  | .hbm, ⟨20, _⟩ => ⟨S640000, .f32⟩
  | .hbm, ⟨21, _⟩ => ⟨S_, .f32⟩
  | .hbm, ⟨22, _⟩ => ⟨S40000, .f32⟩
  | .hbm, ⟨23, _⟩ => ⟨S640000x1, .i32⟩
  | .hbm, ⟨24, _⟩ => ⟨S40000, .f32⟩
  | .hbm, ⟨25, _⟩ => ⟨S_, .f32⟩
  | .hbm, ⟨26, _⟩ => ⟨S40000, .f32⟩
  | .hbm, ⟨27, _⟩ => ⟨S40000, .f32⟩
  | .hbm, ⟨28, _⟩ => ⟨S40000x1, .f32⟩
  | .hbm, ⟨29, _⟩ => ⟨S40000x128, .f32⟩
  | .hbm, ⟨30, _⟩ => ⟨S40000x128, .f32⟩
  | .hbm, ⟨31, _⟩ => ⟨S40000x128, .f32⟩
  | .hbm, ⟨32, _⟩ => ⟨S40000x128, .f32⟩
  | .hbm, ⟨33, _⟩ => ⟨S40000x128, .f32⟩
  | .hbm, ⟨34, _⟩ => ⟨S1x128, .f32⟩
  | .hbm, ⟨35, _⟩ => ⟨S40000x128, .f32⟩
  | .hbm, ⟨36, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.Combine.lean ====
/-
  The dense step of a mean-aggregating graph layer, as ONE function of its five arrays.

  For 40000 nodes with 128 input and 128 output features: from the neighbourhood means `agg`, the node features `x`, the two
  128 × 128 weight matrices `w` (applied to the means) and `rw` (applied to the node's own features) and the bias, the
  layer's output at node `r`, feature `j` is

      out[r, j] = (Σ_k agg[r, k] · w[k, j]  +  Σ_k x[r, k] · rw[k, j])  +  bias[j],

  both sums over the 128 input features, read on the extended reals. The grouping is the one both programs use (the two
  products are added first, the bias last), so no law of arithmetic is needed to compare them: an entry of the output
  depends on row `r` of `agg` and of `x`, on column `j` of the two weight matrices and on `bias[j]`, and on nothing else.
  That is what lets the output be computed 2000 rows at a time.
-/
import Idealize.ShloMosaic.PureOps.Ideal
import Idealize.ShloMosaic.Lib.ValueIdx

noncomputable section

open scoped BigOperators

namespace Cert.SageCombine

open Idealize.ShloMosaic Idealize.ShloMosaic.ValueIdx

/-- The node arrays' shape (nodes × features), the weight matrices' and the bias vector's. -/
abbrev Nodes : Shape := ⟨2, ![40000, 128]⟩
abbrev Weights : Shape := ⟨2, ![128, 128]⟩
abbrev Feats : Shape := ⟨1, ![128]⟩

/-- The output at node `r` and feature `j`: row `r` of the means against column `j` of `w`, plus row `r` of the features
    against column `j` of `rw`, plus the bias at `j`. -/
def combineAt (agg x : Nodes.Idx → EReal) (w rw : Weights.Idx → EReal) (bias : Feats.Idx → EReal) (r : Fin 40000) (j : Fin 128) : EReal :=
  ((∑ k : Fin 128, agg (ix2 r k) * w (ix2 k j)) + (∑ k : Fin 128, x (ix2 r k) * rw (ix2 k j))) + bias (ix1 j)

/-- The whole output array. -/
def combine (agg x : Nodes.Idx → EReal) (w rw : Weights.Idx → EReal) (bias : Feats.Idx → EReal) : Nodes.Idx → EReal :=
  fun i => combineAt agg x w rw bias (i 0) (i 1)

/-- At an index given by its coordinates. -/
theorem combine_ix2 (agg x : Nodes.Idx → EReal) (w rw : Weights.Idx → EReal) (bias : Feats.Idx → EReal) (r : Fin 40000) (j : Fin 128) :
    combine agg x w rw bias (ix2 r j) = combineAt agg x w rw bias r j := rfl

end Cert.SageCombine

end
-- ==== Proof.BlockValue.lean ====
/-
  What the kernel body computes for one block of 2000 nodes, read at an entry.

  The body loads a block `a` of the neighbourhood means and the matching block `x` of the node features (2000 × 128
  each), the two whole weight matrices and the bias as one row, and stores

      (a · w  +  x · rw)  +  (the bias row repeated down the 2000 rows),

  each product a matrix product into a zero accumulator; the changes of float format before the products are the identity on
  the extended reals. At row `p` and column `q` of the block this is the sum over the 128 input features of
  `a[p, k] · w[k, q]`, plus the same for `x` and `rw`, plus `bias[q]`: a product into a zero accumulator is the plain sum
  (zero is neutral on the extended reals, whatever the summands), and its contraction index is its one coordinate.
-/
import proofs.«117017_j52458730553708_1_alg».proof.Proof.Gen.KernelIdeal.Skeleton
import proofs.«117017_j52458730553708_1_alg».proof.Proof.Combine
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.SageCombine

open Cert.KernelIdeal Cert.KernelIdeal.Gen Idealize.ShloMosaic Idealize.ShloMosaic.ValueIdx

/-- The product's left operand is read at the output's row … -/
theorem product_lhs_row (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- … and at the contracted feature; -/
theorem product_lhs_col (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
/-- the right operand at the contracted feature … -/
theorem product_rhs_row (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
/-- … and at the output's column. -/
theorem product_rhs_col (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A 2000 × 128 by 128 × 128 product into the zero accumulator, at row `p` and column `q`: the sum over the contracted
    feature `k` of the left operand at `(p, k)` times the right at `(k, q)`. -/
theorem product_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  show FloatOps.matmul dot_S2000x128_S128x128_S2000x128_1_0_0_1_n_n none l r
      (constant (F := Ideal) S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k := funext fun a => Fin.ext (by
    match a with
    | ⟨0, _⟩ => exact product_lhs_row _ _
    | ⟨1, _⟩ => exact (product_lhs_col _ _).trans hk)
  have er : dot_S2000x128_S128x128_S2000x128_1_0_0_1_n_n.rhsIdx (ix2 p q)
      ((contrEquiv1 dot_S2000x128_S128x128_S2000x128_1_0_0_1_n_n 128 rfl rfl).symm k) = ix2 k q := funext fun a => Fin.ext (by
    match a with
    | ⟨0, _⟩ => exact (product_rhs_row _ _).trans hk
    | ⟨1, _⟩ => exact product_rhs_col _ _)
  rw [el, er]

/-- THE BLOCK'S ENTRY: what the body stores at row `p`, column `q` of its output block, from the blocks it loaded. -/
theorem block_apply (a x : FVec Ideal S2000x128 .f32) (w rw : FVec Ideal S128x128 .f32) (b : FVec Ideal S1x128 .f32)
    (p : Fin 2000) (q : Fin 128) :
    k0_pay1 (F := Ideal) a x w rw b (ix2 p q)
      = ((∑ k : Fin 128, a (ix2 p k) * w (ix2 k q)) + (∑ k : Fin 128, x (ix2 p k) * rw (ix2 k q))) + b (ix2 (0 : Fin 1) q) := by
  unfold k0_pay1
  rw [addf_apply, addf_apply, product_apply, product_apply, broadcastTo_1b_ab_apply, shapeCast_self, shapeCast_self]
  rfl

/-- THE BLOCK AGAINST THE WHOLE ARRAYS: if the loaded blocks are what whole arrays `A`, `X`, `W`, `RW` and a bias vector `B`
    hold on the rows and columns the entry depends on — row `p` of the two node blocks is row `r` of `A` and of `X`, column
    `q` of the weight blocks is column `q` of `W` and `RW`, the bias row at `q` is `B` at `q` — then the body's entry
    `(p, q)` is the dense step's output at `(r, q)`. -/
theorem block_is_combine (A X : Nodes.Idx → EReal) (W RW : Weights.Idx → EReal) (B : Feats.Idx → EReal)
    (a x : FVec Ideal S2000x128 .f32) (w rw : FVec Ideal S128x128 .f32) (b : FVec Ideal S1x128 .f32)
    (p : Fin 2000) (q : Fin 128) (r : Fin 40000)
    (ha : ∀ k : Fin 128, a (ix2 p k) = A (ix2 r k)) (hx : ∀ k : Fin 128, x (ix2 p k) = X (ix2 r k))
    (hw : ∀ k : Fin 128, w (ix2 k q) = W (ix2 k q)) (hrw : ∀ k : Fin 128, rw (ix2 k q) = RW (ix2 k q))
    (hb : b (ix2 (0 : Fin 1) q) = B (ix1 q)) :
    k0_pay1 (F := Ideal) a x w rw b (ix2 p q) = combine A X W RW B (ix2 r q) := by
  rw [block_apply, combine_ix2]
  unfold combineAt
  simp only [ha, hx, hw, hrw, hb]

end Cert.SageCombine

end
-- ==== Proof.Entry.lean ====
/-
  What the kernel's launch finds in the two arrays the host computes before it.

  Before the launch the host computes the neighbourhood means — the same gather along the edges, the same two sums into the
  destination nodes, the same clamp and division as the reference, operation for operation and constant for constant — and
  re-lays the bias vector as one row of 128. So the array of means the launch stages block by block is the reference's own
  intermediate array of means (stated against that ONE term, which is never opened), and the bias row at column `q` is the
  bias at `q`.
-/
import proofs.«117017_j52458730553708_1_alg».proof.Proof.Gen.KernelIdeal.Frame
import proofs.«117017_j52458730553708_1_alg».proof.Proof.Gen.ReferenceIdeal.Read
import Idealize.ShloMosaic.Lib.StableHlo.Run
import Idealize.ShloMosaic.Lib.ValueLayout

noncomputable section

namespace Cert.SageCombine

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The means the launch finds are the reference's means of the same three arguments. -/
theorem entry_means (c : Dev nD) :
    (V m c main_v18 : S40000x128.Idx → EReal)
      = Cert.ReferenceIdeal.Read.val_main_v18 (F := Ideal) (m ((c : Thread nD τ).loc main_arg0))
          (m ((c : Thread nD τ).loc main_arg1)) (m ((c : Thread nD τ).loc main_arg2)) := by
  show StableHlo.after hostOps0 (fun b => m (c, b)) (Proc.devRef .tc main_v18) = _
  after_results_simp <;> rfl

/-- The bias row the launch finds, at column `q`, is the bias at `q`. -/
theorem entry_bias (c : Dev nD) (q : Fin 128) :
    (V m c main_v19 : S1x128.Idx → EReal) (ix2 (0 : Fin 1) q) = m ((c : Thread nD τ).loc main_arg5) (ix1 q) := by
  have e : (V m c main_v19 : S1x128.Idx → EReal)
      = shapeCast S1x128 (m ((c : Thread nD τ).loc main_arg5)) Facts₀.shapeCasts_S128_S1x128 := by
    show StableHlo.after hostOps0 (fun b => m (c, b)) (Proc.devRef .tc main_v19) = _
    after_results_simp <;> rfl
  rw [e]
  exact shapeCast_a_1a_apply _ _ _ _

end Cert.SageCombine

end
-- ==== Proof.KernelValue.lean ====
/-
  From the blocks to the array: what the kernel leaves in its result.

  The launch runs over 20 points. At point `t` it stages rows `2000 t … 2000 t + 1999` of the means and of the node
  features, the two whole weight matrices and the whole bias row (these three never move), and writes the body's block back
  to rows `2000 t … 2000 t + 1999` of the result. An entry of the dense step depends only on its own row of the two node
  arrays and its own column of the weights and the bias, so the block point `t` writes is exactly rows `2000 t …` of the
  dense step's output on the WHOLE arrays; the 20 row blocks tile the 40000 rows (row `r` lies in block `r / 2000`), so the
  result array ends holding that output.
-/
import proofs.«117017_j52458730553708_1_alg».proof.Proof.Gen.KernelIdeal.Value
import proofs.«117017_j52458730553708_1_alg».proof.Proof.Combine
import proofs.«117017_j52458730553708_1_alg».proof.Proof.BlockValue
import proofs.«117017_j52458730553708_1_alg».proof.Proof.Entry

noncomputable section

open scoped BigOperators

namespace Cert.SageCombine

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The printed index maps over the 20 points: the means', the features' and the result's block index is `(t, 0)`; the
    weights' and the bias row's is `(0, 0)` throughout. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The dense step's output on the arrays as the launch finds them: the means and the bias as the host left them, the
    features and the weights as given. -/
def result (c : Dev nD) : S40000x128.Idx → EReal :=
  combine (V m c main_v18 : S40000x128.Idx → EReal) (V m c main_arg0 : S40000x128.Idx → EReal)
    (V m c main_arg3 : S128x128.Idx → EReal) (V m c main_arg4 : S128x128.Idx → EReal)
    (m ((c : Thread nD τ).loc main_arg5) : S128.Idx → EReal)

/-! ## The blocks a point stages, read where the result's block lies -/

/-- Row `p` of the means' block at point `t` is row `2000 t + p` of the means. -/
theorem means_block (c : Dev nD) (t : Fin cfg0.N) (p : Fin 2000) (k : Fin 128) (r : Fin 40000) (hr : r.val = t.val * 2000 + p.val) :
    (iblk m c 0 t : S2000x128.Idx → EReal) (ix2 p k) = (V m c main_v18 : S40000x128.Idx → EReal) (ix2 r k) := by
  obtain ⟨e0, e1, -⟩ := block_indices t
  unfold iblk
  rw [View.read_apply]
  refine congrArg (V m c main_v18 : S40000x128.Idx → EReal) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- Row `p` of the features' block at point `t` is row `2000 t + p` of the features. -/
theorem feats_block (c : Dev nD) (t : Fin cfg0.N) (p : Fin 2000) (k : Fin 128) (r : Fin 40000) (hr : r.val = t.val * 2000 + p.val) :
    (iblk m c 1 t : S2000x128.Idx → EReal) (ix2 p k) = (V m c main_arg0 : S40000x128.Idx → EReal) (ix2 r k) := by
  obtain ⟨-, -, e0, e1, -⟩ := block_indices t
  unfold iblk
  rw [View.read_apply]
  refine congrArg (V m c main_arg0 : S40000x128.Idx → EReal) (funext fun a => Fin.ext ?_)
  match a with
  | ⟨0, _⟩ => show win0_1.index t (0 : Fin 2) * 2000 + 1 * p.val = r.val; omega
  | ⟨1, _⟩ => show win0_1.index t (1 : Fin 2) * 128 + 1 * k.val = k.val; omega

/-- The first weight matrix is staged whole at every point. -/
theorem weight_block (c : Dev nD) (t : Fin cfg0.N) (k q : Fin 128) :
    (iblk m c 2 t : S128x128.Idx → EReal) (ix2 k q) = (V m c main_arg3 : S128x128.Idx → EReal) (ix2 k q) := by
  obtain ⟨-, -, -, -, e0, e1, -⟩ := block_indices t
  unfold iblk
  rw [View.read_apply]
  refine congrArg (V m c main_arg3 : S128x128.Idx → EReal) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- So is the second. -/
theorem root_weight_block (c : Dev nD) (t : Fin cfg0.N) (k q : Fin 128) :
    (iblk m c 3 t : S128x128.Idx → EReal) (ix2 k q) = (V m c main_arg4 : S128x128.Idx → EReal) (ix2 k q) := by
  obtain ⟨-, -, -, -, -, -, e0, e1, -⟩ := block_indices t
  unfold iblk
  rw [View.read_apply]
  refine congrArg (V m c main_arg4 : S128x128.Idx → EReal) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias row is staged whole at every point, and at column `q` it is the bias at `q`. -/
theorem bias_block (c : Dev nD) (t : Fin cfg0.N) (q : Fin 128) :
    (iblk m c 4 t : S1x128.Idx → EReal) (ix2 (0 : Fin 1) q) = (m ((c : Thread nD τ).loc main_arg5) : S128.Idx → EReal) (ix1 q) := by
  obtain ⟨-, -, -, -, -, -, -, -, e0, e1, -⟩ := block_indices t
  refine Eq.trans ?_ (entry_bias m c q)
  unfold iblk
  rw [View.read_apply]
  refine congrArg (V m c main_v19 : S1x128.Idx → EReal) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Entry `(p, q)` of the result's block at point `t` is entry `(2000 t + p, q)` of the result. -/
theorem result_block (t : Fin cfg0.N) (p : Fin 2000) (q : Fin 128) (r : Fin 40000) (hr : r.val = t.val * 2000 + p.val) :
    ((cfg0.win 5).blk t).view.emb (ix2 p q) = (ix2 r q : S40000x128.Idx) := by
  obtain ⟨-, -, -, -, -, -, -, -, -, -, e0, e1⟩ := block_indices t
  refine funext fun a => Fin.ext ?_
  match a with
  | ⟨0, _⟩ => show win0_5.index t (0 : Fin 2) * 2000 + 1 * p.val = r.val; omega
  | ⟨1, _⟩ => show win0_5.index t (1 : Fin 2) * 128 + 1 * q.val = q.val; omega

/-! ## What a point writes back, the cover, and the array -/

/-- WHAT POINT `t` WRITES BACK is block `t` of the dense step's output on the whole arrays. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero origin]
  simp only [View.ld_unit_zero (S := S2000x128) origin, View.ld_unit_zero (S := S128x128) origin,
    View.ld_unit_zero (S := S1x128) origin]
  refine funext fun (j : S2000x128.Idx) => ?_
  obtain ⟨p, q, rfl⟩ : ∃ (p : Fin 2000) (q : Fin 128), j = ix2 p q := ⟨j 0, j 1, eq_ix2 j⟩
  have hN : cfg0.N = 20 := N_0
  have ht : t.val < 20 := lt_of_lt_of_eq t.isLt hN
  obtain ⟨r, hr⟩ : ∃ r : Fin 40000, r.val = t.val * 2000 + p.val :=
    ⟨⟨t.val * 2000 + p.val, by have := p.isLt; omega⟩, rfl⟩
  rw [View.read_apply, result_block t p q r hr]
  exact block_is_combine (V m c main_v18 : S40000x128.Idx → EReal) (V m c main_arg0 : S40000x128.Idx → EReal)
    (V m c main_arg3 : S128x128.Idx → EReal) (V m c main_arg4 : S128x128.Idx → EReal)
    (m ((c : Thread nD τ).loc main_arg5) : S128.Idx → EReal)
    (iblk m c 0 t) (iblk m c 1 t) (iblk m c 2 t) (iblk m c 3 t) (iblk m c 4 t) p q r
    (fun k => means_block m c t p k r hr) (fun k => feats_block m c t p k r hr)
    (fun k => weight_block m c t k q) (fun k => root_weight_block m c t k q) (bias_block m c t q)

/-- An index of the result is in point `t`'s block iff each coordinate is in the block's range on its axis. -/
theorem mem_block (t : Fin cfg0.N) (i : S40000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v20).slice (win0_5.rect t)).set ↔ _
  rw [View.set_slice_whole, Rect.mem_set_unit]
  exact Iff.rfl

/-- THE COVER: row `r` of the result lies in the block of point `r / 2000`, which writes back. -/
theorem covered (i : S40000x128.Idx) :
    ∃ t : Fin cfg0.N, (cfg0.win 5).flush t = true ∧ i ∈ ((cfg0.win 5).blk t).view.set := by
  have hi0 : (i 0).val < 40000 := (i 0).isLt
  have hi1 : (i 1).val < 128 := (i 1).isLt
  have hN : cfg0.N = 20 := N_0
  obtain ⟨t, ht⟩ : ∃ t : Fin cfg0.N, t.val = (i 0).val / 2000 :=
    ⟨⟨(i 0).val / 2000, lt_of_lt_of_eq (by omega : (i 0).val / 2000 < 20) hN.symm⟩, rfl⟩
  obtain ⟨-, -, -, -, -, -, -, -, -, -, e0, e1⟩ := block_indices t
  refine ⟨t, flush0_5 t, ?_⟩
  rw [mem_block]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- THE ARRAY after the run is the dense step's output on the arrays the launch found. -/
theorem final (c : Dev nD) : (dats m 0 c).arrAt 5 cfg0.N = result m c :=
  (dats m 0 c).arrAt_eq_of_cover 5 (result m c) (fun t _ => flushed_eq m c t) covered

/-- … which, the host prefix read back, is the dense step on the reference's own means of the arguments, the
    features, the weights and the bias as given. -/
theorem result_eq (c : Dev nD) :
    result m c = combine (Cert.ReferenceIdeal.Read.val_main_v18 (F := Ideal) (m ((c : Thread nD τ).loc main_arg0))
        (m ((c : Thread nD τ).loc main_arg1)) (m ((c : Thread nD τ).loc main_arg2)))
      (m ((c : Thread nD τ).loc main_arg0)) (m ((c : Thread nD τ).loc main_arg3)) (m ((c : Thread nD τ).loc main_arg4))
      (m ((c : Thread nD τ).loc main_arg5)) := by
  unfold result
  rw [entry_means m c, V_main_arg0 m c, V_main_arg3 m c, V_main_arg4 m c]

/-- THE KERNEL'S RUN, READ: every weakly fair execution terminates with the result array at the dense step of the means
    of the arguments, and the arguments unchanged. -/
theorem run : θ_run defs (onTc (τ := τ) (main (F := Ideal))) ⟨m, fun _ => 0, ρ⟩ fun r => ∀ c : Dev nD,
      r.2.mem ((c : Thread nD τ).loc main_v20)
        = combine (Cert.ReferenceIdeal.Read.val_main_v18 (F := Ideal) (m ((c : Thread nD τ).loc main_arg0))
            (m ((c : Thread nD τ).loc main_arg1)) (m ((c : Thread nD τ).loc main_arg2)))
          (m ((c : Thread nD τ).loc main_arg0)) (m ((c : Thread nD τ).loc main_arg3)) (m ((c : Thread nD τ).loc main_arg4))
          (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (result_eq m c)), (h c).2⟩)
    (Cert.KernelIdeal.Value.run_blocks m ρ)

end Cert.SageCombine

end
-- ==== Proof.RefValue.lean ====
/-
  The reference, read entry by entry, is the dense step of `Combine.lean` applied to the neighbourhood means it computes
  first.

  The reference gathers the source features along the edges, sums them into the destination nodes, divides by the clamped
  in-degree — that array of means is kept as ONE closed term here, never opened — and then forms
  `means · weight + x · root_weight + bias` with two whole-array products. Read at node `r` and feature `j`, each product is
  the sum over the 128 input features of the left operand at `(r, k)` times the right at `(k, j)`, and the bias, repeated over
  the nodes, is read at `j`.
-/
import proofs.«117017_j52458730553708_1_alg».proof.Proof.Gen.ReferenceIdeal.Read
import proofs.«117017_j52458730553708_1_alg».proof.Proof.Combine

noncomputable section

open scoped BigOperators

namespace Cert.SageCombine

open Cert.ReferenceIdeal Cert.ReferenceIdeal.Read Idealize.ShloMosaic Idealize.ShloMosaic.ValueIdx

/-- The reference's result array, as a function of its six arguments, is `combine` of the means (its own intermediate
    array, a function of the features and the two edge lists), the features, the two weight matrices and the bias. -/
theorem reference_eq (x0 : (⟨S40000x128, .f32⟩ : BufTy).Contents (Elt Ideal)) (x1 x2 : (⟨S640000, .i32⟩ : BufTy).Contents (Elt Ideal))
    (x3 x4 : (⟨S128x128, .f32⟩ : BufTy).Contents (Elt Ideal)) (x5 : (⟨S128, .f32⟩ : BufTy).Contents (Elt Ideal)) :
    val_main_v24 (F := Ideal) x0 x1 x2 x3 x4 x5 = combine (val_main_v18 (F := Ideal) x0 x1 x2) x0 x3 x4 x5 := by
  funext i
  have hl19 : ∀ k : Fin 128, lidx_main_v19 i k = ix2 (i 0) k := fun k => funext fun a => Fin.ext (by
    match a with | ⟨0, _⟩ => rfl | ⟨1, _⟩ => rfl)
  have hr19 : ∀ k : Fin 128, ridx_main_v19 i k = ix2 k (i 1) := fun k => funext fun a => Fin.ext (by
    match a with | ⟨0, _⟩ => rfl | ⟨1, _⟩ => rfl)
  have hl20 : ∀ k : Fin 128, lidx_main_v20 i k = ix2 (i 0) k := fun k => funext fun a => Fin.ext (by
    match a with | ⟨0, _⟩ => rfl | ⟨1, _⟩ => rfl)
  have hr20 : ∀ k : Fin 128, ridx_main_v20 i k = ix2 k (i 1) := fun k => funext fun a => Fin.ext (by
    match a with | ⟨0, _⟩ => rfl | ⟨1, _⟩ => rfl)
  have hb : idx_main_v22 (idx_main_v23 i) = ix1 (i 1) := funext fun a => Fin.ext (by
    match a with | ⟨0, _⟩ => rfl)
  rw [val_main_v24_apply, val_main_v21_apply, val_main_v19_apply, val_main_v20_apply, val_main_v23_apply, val_main_v22_apply]
  simp only [hl19, hr19, hl20, hr20, hb]
  rfl

end Cert.SageCombine

end
-- ==== Proof.lean ====
/-
  A mean-aggregating graph layer: the kernel against its reference, on the extended reals.

  Both programs first compute the neighbourhood means on the host — gather the source node's features along each of the
  640000 edges, sum them into the destination nodes, count the in-degrees the same way, clamp the counts at one, divide —
  with the same operations and the same constants in the same order. The reference then forms
  `means · weight + x · root_weight + bias` with two whole 40000 × 128 by 128 × 128 products. The kernel forms it 2000
  nodes at a time: at each of 20 grid points it loads a row block of the means and of the features and the whole weights
  and bias, changes the float format of the four matrices (the identity on the extended reals), multiplies into zero
  accumulators, adds the two products, adds the bias row, and stores the block.

  An entry `(r, j)` of `(Σ_k means[r, k] · w[k, j] + Σ_k x[r, k] · rw[k, j]) + bias[j]` depends only on row `r` of the two node
  arrays and column `j` of the weights and the bias, so each block the kernel writes is the corresponding rows of that one
  function of the whole arrays, and the 20 blocks tile the rows (Proof/KernelValue.lean over Proof/BlockValue.lean). The
  reference's two products read at an entry are the same two sums, added in the same order (Proof/RefValue.lean). The means
  are the SAME term of the arguments on both sides (Proof/Entry.lean), so the comparison never opens the gather or the sums
  over the edges, and needs no law of arithmetic beyond `0 + s = s`: nothing here uses that the inputs are finite.

  The kernel's idealization rewrote no operation, so `preserves` has nothing to state. The three frames are the generated
  ones (the reference's: its generated run, the result dropped).
-/
import proofs.«117017_j52458730553708_1_alg».proof.Defs
import proofs.«117017_j52458730553708_1_alg».proof.Proof.Gen.Kernel
import proofs.«117017_j52458730553708_1_alg».proof.Proof.Gen.Kernel.Skeleton
import proofs.«117017_j52458730553708_1_alg».proof.Proof.Gen.Kernel.Launch
import proofs.«117017_j52458730553708_1_alg».proof.Proof.Gen.Kernel.Points
import proofs.«117017_j52458730553708_1_alg».proof.Proof.Gen.Kernel.Frame
import proofs.«117017_j52458730553708_1_alg».proof.Proof.Gen.KernelIdeal
import proofs.«117017_j52458730553708_1_alg».proof.Proof.Gen.KernelIdeal.Skeleton
import proofs.«117017_j52458730553708_1_alg».proof.Proof.Gen.KernelIdeal.Launch
import proofs.«117017_j52458730553708_1_alg».proof.Proof.Gen.KernelIdeal.Points
import proofs.«117017_j52458730553708_1_alg».proof.Proof.Gen.KernelIdeal.Frame
import proofs.«117017_j52458730553708_1_alg».proof.Proof.Gen.ReferenceIdeal
import proofs.«117017_j52458730553708_1_alg».proof.Proof.Gen.Pre_finite_inputs
import proofs.«117017_j52458730553708_1_alg».proof.Proof.Gen.KernelIdeal.Value
import proofs.«117017_j52458730553708_1_alg».proof.Proof.Gen.ReferenceIdeal.Run
import proofs.«117017_j52458730553708_1_alg».proof.Proof.Gen.ReferenceIdeal.Read
import proofs.«117017_j52458730553708_1_alg».proof.Proof.KernelValue
import proofs.«117017_j52458730553708_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- On the extended reals, from memories that agree on the six arguments, both programs end with the dense step of the
    neighbourhood means of the arguments in their result: the kernel block by block, the reference in two whole products. -/
theorem algebraic : Cert.algebraic_KernelIdeal_ReferenceIdeal := by
  intro m ρ m' ρ' _ hagree
  refine ⟨_, Cert.SageCombine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.SageCombine.reference_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
